-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S512x4096 : Shape := ⟨2, ![512, 4096]⟩
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .bf16⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S2048x512, .f32⟩
  | .local _ .vmem, ⟨5, _⟩ => ⟨S2048x512, .f32⟩
  | .local _ .vmem, ⟨6, _⟩ => ⟨S512x1024, .bf16⟩
  | .local _ .vmem, ⟨7, _⟩ => ⟨S512x1024, .bf16⟩
  | .local _ .vmem, ⟨8, _⟩ => ⟨S2048x1024, .f32⟩
  | .local _ .vmem, ⟨9, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![4, 4, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S2048x1024_S2048x1024_0_0 : ∀ a, (![0, 0] : Fin 2 → Nat) a + S2048x1024.size a ≤ S2048x1024.size a
  h_S2048x1024 : 0 < S2048x1024.numel
  inb_S2048x512_S2048x512_0_0 : ∀ a, (![0, 0] : Fin 2 → Nat) a + S2048x512.size a ≤ S2048x512.size a
  h_S2048x512 : 0 < S2048x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S2048x1024_S2048x1024 : S2048x1024.ShapeCasts S2048x1024
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x4096.size a
  hwx1_0 : ∀ i : grid1.Coords, EltTy.bits .f32 = 32 ∨ (Rect.block (s := S8192x4096) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x4096.size a
  hwx1_1 : ∀ i : grid1.Coords, EltTy.bits .bf16 = 32 ∨ (Rect.block (s := S4096x4096) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S8192x4096.size a
  hwx1_2 : ∀ i : grid1.Coords, EltTy.bits .f32 = 32 ∨ (Rect.block (s := S8192x4096) S2048x1024.size (cc1_transform_2 i) (hinb1_2 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .i1⟩
  | .hbm, ⟨5, _⟩ => ⟨S_, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.FiniteArgs.lean ====
/-
  What the precondition gives.  The precondition says that every entry of both argument matrices has an absolute
  value below +∞; over the extended reals that means every entry is a real number.  Only the right-hand
  (thresholded) matrix's entries are needed as reals: the straight-through estimator adds and subtracts them.
-/
import proofs.«181984_j18889266168358_2_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.Pre_finite_inputs.Finite

open Cert.Pre_finite_inputs Idealize.ShloMosaic Idealize.ShloMosaic.ValueIdx

instance : Subsingleton S_.Idx := ⟨fun a b => funext fun d => d.elim0⟩

/-- The f32 word 0x7F800000 is +∞. -/
theorem ofBits_pos_inf : Ideal.ofBits .f32 0x7F800000#32 = ⊤ := by
  simp [Ideal.ofBits, Ideal.ieee]

/-- An extended real whose absolute value is below +∞ is a real. -/
theorem real_of_abs_lt_inf (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_pos_inf] at h
  induction x using EReal.rec with
  | bot => exact absurd h (by show ¬ Ideal.cmp .olt (max (⊥ : EReal) (-⊥)) ⊤ = 1#1; simp [Ideal.cmp])
  | top => exact absurd h (by show ¬ Ideal.cmp .olt (max (⊤ : EReal) (-⊤)) ⊤ = 1#1; simp [Ideal.cmp])
  | coe r => exact ⟨r, rfl⟩

variable [Facts]

/-- Under the precondition every entry of the second argument is a real. -/
theorem arg1_real (X : FVec Ideal S8192x4096 .f32) (W : FVec Ideal S4096x4096 .f32)
    (h : fn (F := Ideal) X W = fun _ => 1#1) (i : S4096x4096.Idx) : ∃ r : ℝ, W i = (r : EReal) := by
  have h0 := congrFun h ix0
  dsimp only [fn] at h0
  have h1 := (IntOp.andi_eq_one.mp h0).2
  have h2 := Host.reduce_andi_all _ _ _ _ ix0 h1 i
  exact real_of_abs_lt_inf (W i) h2

end Cert.Pre_finite_inputs.Finite

end
-- ==== Proof.LibBlockedSum.lean ====
/-
  General lemmas for a matrix product accumulated block by block along the contracted axis, and for the
  straight-through estimator's forward value, over the extended reals.  No program is mentioned here.

  * an array indexed by a pair of bounded coordinates is extended to all pairs of naturals (0 outside), so that block
    arithmetic (row 2048·g + p, column 512·k + r) is plain arithmetic on naturals;
  * a sum over K·T consecutive naturals is the sum over K groups of T (`sum_range_blocks`);
  * for a REAL w and any extended real b, w + (b - w) = b (`add_sub_cancel_of_real`): the straight-through
    estimator's forward value is the thresholded entry itself.  (For w = ±∞ this fails: ⊤ + (1 - ⊤) = ⊥.)
-/
import Idealize.ShloMosaic.PureOps.Ideal
import Idealize.ShloMosaic.Lib.ValueIdx

noncomputable section

namespace Cert.BinMatmul

open Idealize.ShloMosaic Idealize.ShloMosaic.ValueIdx Finset

/-! ## Arrays over pairs of naturals -/

/-- A two-axis array read at a pair of naturals: its entry inside the extents, 0 outside. -/
def natExt {a b : ℕ} (A : (⟨2, ![a, b]⟩ : Shape).Idx → EReal) (i j : ℕ) : EReal :=
  if h : i < a ∧ j < b then A (ix2 ⟨i, h.1⟩ ⟨j, h.2⟩) else 0

/-- Any index whose coordinates are `i` and `j` reads the extension at `(i, j)`. -/
theorem natExt_of_idx {a b : ℕ} (A : (⟨2, ![a, b]⟩ : Shape).Idx → EReal) (y : (⟨2, ![a, b]⟩ : Shape).Idx) (i j : ℕ)
    (h0 : (y 0).val = i) (h1 : (y 1).val = j) : A y = natExt A i j := by
  subst h0; subst h1
  unfold natExt
  rw [dif_pos ⟨(y 0).isLt, (y 1).isLt⟩]
  exact congrArg A (eq_ix2 y)

theorem natExt_ix2 {a b : ℕ} (A : (⟨2, ![a, b]⟩ : Shape).Idx → EReal) (i : Fin a) (j : Fin b) :
    natExt A i.val j.val = A (ix2 i j) :=
  (natExt_of_idx A (ix2 i j) i.val j.val rfl rfl).symm

/-! ## Sums in groups -/

/-- A sum over `K * T` consecutive naturals is the sum over `K` groups of `T`: group `kb` holds `T * kb + kk`. -/
theorem sum_range_blocks {M : Type*} [AddCommMonoid M] (K T : ℕ) (g : ℕ → M) :
    ∑ k ∈ range (K * T), g k = ∑ kb ∈ range K, ∑ kk ∈ range T, g (T * kb + kk) := by
  induction K with
  | zero => simp
  | succ K ih =>
    rw [Nat.succ_mul, Finset.sum_range_add, ih, Finset.sum_range_succ]
    refine congrArg (_ + ·) (Finset.sum_congr rfl fun kk _ => ?_)
    rw [Nat.mul_comm]

/-! ## The thresholded entry, and the straight-through estimator's forward value -/

/-- For a real `w` and any extended real `b`: `w + (b - w) = b`. -/
theorem add_sub_cancel_of_real (w : ℝ) (b : EReal) : (w : EReal) + (b - (w : EReal)) = b := by
  induction b using EReal.rec with
  | bot => simp
  | top => simp
  | coe r =>
    rw [← EReal.coe_sub, ← EReal.coe_add]
    exact congrArg _ (by ring)

end Cert.BinMatmul

end
-- ==== Proof.RefValue.lean ====
/-
  The reference, entry by entry.  It thresholds the right-hand matrix to 0/1 entries (1 where the entry exceeds 0.5),
  forms  w + (b - w)  with that thresholded entry b (the straight-through estimator, whose forward value is b as long
  as w is a real number), and multiplies the left matrix by the result: entry (i, j) is the 4096-term inner product
  of the left matrix's row i with the thresholded matrix's column j.
-/
import proofs.«181984_j18889266168358_2_alg».proof.Proof.Gen.ReferenceIdeal.Read
import proofs.«181984_j18889266168358_2_alg».proof.Proof.LibBlockedSum

noncomputable section

namespace Cert.ReferenceIdeal.RefValue

open Cert.ReferenceIdeal Cert.ReferenceIdeal.Read Cert.BinMatmul
open Idealize.ShloMosaic Idealize.ShloMosaic.ValueIdx

/-- One entry thresholded: 1 if it exceeds 0.5, else 0. -/
def thrRef (w : EReal) : EReal :=
  Scalar.select (FloatOps.cmpf (F := Ideal) (φ := .f32) .ogt w (Ideal.ofBits .f32 0x3F000000#32))
    (Ideal.ofBits .f32 0x3F800000#32) (Ideal.ofBits .f32 0x00000000#32)

/-- The selected matrix is the entrywise threshold. -/
theorem v2_apply (W : (⟨S4096x4096, .f32⟩ : BufTy).Contents (Elt Ideal)) (i : S4096x4096.Idx) :
    val_main_v2 (F := Ideal) W i = thrRef (W i) := by
  rw [val_main_v2_apply, val_main_v1_apply, val_main_v0_apply, val_main_cst_apply, val_main_call0_v0_apply,
    val_main_cst_0_apply, val_main_call0_v1_apply, val_main_cst_1_apply]
  rfl

/-- Where the entry is a real number, `w + (b - w)` is the thresholded entry `b`. -/
theorem v5_apply (W : (⟨S4096x4096, .f32⟩ : BufTy).Contents (Elt Ideal)) (i : S4096x4096.Idx)
    (hW : ∃ r : ℝ, W i = (r : EReal)) : val_main_v5 (F := Ideal) W i = thrRef (W i) := by
  obtain ⟨r, hr⟩ := hW
  rw [val_main_v5_apply, val_main_v4_apply, val_main_v3_apply, v2_apply]
  show W i + (thrRef (W i) - W i) = thrRef (W i)
  rw [hr]
  exact add_sub_cancel_of_real r _

/-- The reference's result at entry `i`: the 4096-term inner product, over the matrices extended to the naturals. -/
theorem result_apply (X : (⟨S8192x4096, .f32⟩ : BufTy).Contents (Elt Ideal)) (W : (⟨S4096x4096, .f32⟩ : BufTy).Contents (Elt Ideal))
    (hW : ∀ j, ∃ r : ℝ, W j = (r : EReal)) (i : S8192x4096.Idx) :
    val_main_v6 (F := Ideal) X W i
      = ∑ k ∈ Finset.range 4096, natExt (a := 8192) (b := 4096) X (i 0).val k
          * natExt (a := 4096) (b := 4096) (fun j => thrRef (W j)) k (i 1).val := by
  rw [val_main_v6_apply, Finset.sum_range]
  refine Finset.sum_congr rfl fun k _ => ?_
  rw [v5_apply W _ (hW _)]
  rw [natExt_of_idx (a := 8192) (b := 4096) X (lidx_main_v6 i k) (i 0).val k.val rfl rfl,
    natExt_of_idx (a := 4096) (b := 4096) (fun j => thrRef (W j)) (ridx_main_v6 i k) k.val (i 1).val rfl rfl]

end Cert.ReferenceIdeal.RefValue

end
-- ==== Proof.KernelRun.lean ====
/-
  The idealized kernel's run, read at its result buffer.  The program is two kernel launches in a row; after the
  second one every buffer that outlives the launches holds the contents the two launches' write-backs leave, and the
  result buffer is the array the second launch writes back block by block.  The statement keeps the result buffer's
  final contents named as that array, so that the value proof can say which function of the arguments it is.
-/
import proofs.«181984_j18889266168358_2_alg».proof.Proof.Gen.KernelIdeal.Frame

set_option maxRecDepth 16384

noncomputable section

namespace Cert.KernelIdeal.OutRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the two launches terminates without a fault, the result buffer ends at the array
    the second launch's write-backs leave (from the memory the first launch leaves), and both arguments end as
    launched. -/
theorem run : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_arr m ρ c 2),
       (h c _ (mem_uc main_arg0 (by decide))).trans (W2_main_arg0 m ρ c),
       (h c _ (mem_uc main_arg1 (by decide))).trans (W2_main_arg1 m ρ c)⟩)

end Cert.KernelIdeal.OutRun

end
-- ==== Proof.Thresholded.lean ====
/-
  The first launch: the right-hand matrix thresholded to 0/1 entries.  Each of its 8 grid points reads a block of
  512 rows, replaces every entry w by (1 if w > 0.5 else 0), and writes the block back at the same place; the blocks
  tile the matrix, so the array the launch leaves is the entrywise threshold of the matrix it found.
-/
import proofs.«181984_j18889266168358_2_alg».proof.Proof.Gen.KernelIdeal.Frame
import Idealize.ShloMosaic.Lib.Pipeline.Value

noncomputable section

namespace Cert.KernelIdeal.Thresholded

open Cert.KernelIdeal Cert.KernelIdeal.Gen
open Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- One entry thresholded: 1 if it exceeds 0.5, else 0 (then narrowed to the storage format). -/
def thr (w : F .f32) : F .bf16 :=
  FloatOps.truncf .bf16 bitsLt_bf16_f32
    (Scalar.select (FloatOps.cmpf .ogt w (FloatOps.ofBits .f32 0x3F000000#32))
      (FloatOps.ofBits (F := F) .f32 0x3F800000#32) (FloatOps.ofBits (F := F) .f32 0x00000000#32))

/-- The body's payload is the entrywise threshold of the block it loads. -/
theorem pay1_apply (x : Vec F S512x4096 .f32) (j : S512x4096.Idx) : k0_pay1 x j = thr (x j) := rfl

variable (V : (c : Dev nD) → (b : Ref sig .tc) → Buf (Elt F) ((c : Thread nD τ).loc b))

/-- Both windows of the launch sit at block (t, 0) at point t. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The thresholded matrix, as a function of the matrix the launch finds. -/
abbrev binArr (c : Dev nD) : S4096x4096.Idx → Elt F .bf16 := fun i => thr (V c main_arg1 i)

/-- What point `t` writes back is block `t` of the thresholded matrix. -/
theorem flushed_eq (c : Dev nD) (t : Fin cfg0.N) :
    (dat0 V c).flushed 1 t = ((cfg0.win 1).blk t).view.read (Elt F) (binArr V c) := by
  show (cfg0.win 1).cut (grid0.coords t) ((dat0 V c).after 1 t) = _
  rw [after0_1]
  unfold out0_1
  rw [View.canon_unit_zero hz]
  simp only [View.ld_unit_zero (S := S512x4096) hz]
  obtain ⟨e0, e1, e2, e3⟩ := idx_facts t
  funext j
  show thr (V c main_arg1 (((cfg0.win 0).blk t).view.emb j)) = thr (V c main_arg1 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 4096 + 1 * (j 1).val = win0_1.index t (1 : Fin 2) * 4096 + 1 * (j 1).val; omega
  rw [h0]

/-- An index of the matrix is in point `t`'s block iff each coordinate is in the block's range on its axis. -/
theorem mem_blk (t : Fin cfg0.N) (i : S4096x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v0).slice (win0_1.rect t)).set ↔ _
  rw [View.set_slice_whole, Rect.mem_set_unit]
  exact Iff.rfl

/-- Row `r` lies in the block of point `r / 512`. -/
theorem cover (i : S4096x4096.Idx) : ∃ t : Fin cfg0.N, (cfg0.win 1).flush t = true ∧ i ∈ ((cfg0.win 1).blk t).view.set := by
  have hi0 : (i 0).val < 4096 := (i 0).isLt
  have hi1 : (i 1).val < 4096 := (i 1).isLt
  have hN : cfg0.N = 8 := N_0
  let t : Fin cfg0.N := ⟨(i 0).val / 512, by rw [hN]; omega⟩
  obtain ⟨e0, e1, e2, e3⟩ := idx_facts t
  have ht : t.val = (i 0).val / 512 := rfl
  refine ⟨t, flush0_1 t, ?_⟩
  rw [mem_blk]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- The array the first launch leaves is the thresholded matrix. -/
theorem final (c : Dev nD) : (dat0 V c).arrAt 1 cfg0.N = binArr V c :=
  (dat0 V c).arrAt_eq_of_cover 1 (binArr V c) (fun t _ => flushed_eq V c t) cover

end Cert.KernelIdeal.Thresholded

end
-- ==== Proof.MatmulStep.lean ====
/-
  One step of the blocked product, read at an entry.  The second launch's body adds to the output block it finds the
  product of a 2048×512 block of the left matrix with a 512×1024 block of the thresholded right matrix: at row `p`,
  column `q`, the entry found plus the sum over the 512 contracted positions of left(p, r) · right(r, q).  The
  roundings to the narrower float format on the way into the product are the identity over the extended reals, and
  the product starts from a zero block.
-/
import proofs.«181984_j18889266168358_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.MatmulStep

open Cert.KernelIdeal Cert.KernelIdeal.Gen
open Idealize.ShloMosaic Idealize.ShloMosaic.ValueIdx

/-- The block product's dimension record contracts axis 1 of the left block against axis 0 of the right block. -/
abbrev dd := dot_S2048x512_S512x1024_S2048x1024_1_0_0_1_n_n

theorem lhs0 (i : S2048x1024.Idx) (q : dd.contr.Idx) : (dd.lhsIdx i q 0).val = (i 0).val := by
  unfold DotDims.lhsIdx
  rw [dif_neg (show ¬(0 : Fin S2048x512.rank) ∈ dd.lhsBatch by decide), dif_pos (show (0 : Fin S2048x512.rank) ∈ dd.lhsNonContracting by decide)]
  rfl
theorem lhs1 (i : S2048x1024.Idx) (q : dd.contr.Idx) : (dd.lhsIdx i q 1).val = (q ⟨0, by decide⟩).val :=
  dd.lhsIdx_val_of_single rfl i q
theorem rhs0 (i : S2048x1024.Idx) (q : dd.contr.Idx) : (dd.rhsIdx i q 0).val = (q ⟨0, by decide⟩).val :=
  dd.rhsIdx_val_of_single rfl i q
theorem rhs1 (i : S2048x1024.Idx) (q : dd.contr.Idx) : (dd.rhsIdx i q 1).val = (i 1).val := by
  unfold DotDims.rhsIdx
  rw [dif_neg (show ¬(1 : Fin S512x1024.rank) ∈ dd.rhsBatch by decide), dif_pos (show (1 : Fin S512x1024.rank) ∈ dd.rhsNonContracting by decide)]
  rfl

/-- The step's payload at row `p`, column `q`: the entry found plus the 512-term inner product. -/
theorem pay2_apply (x0 : FVec Ideal S2048x512 .f32) (x1 : FVec Ideal S512x1024 .bf16) (acc : FVec Ideal S2048x1024 .f32)
    (p : Fin 2048) (q : Fin 1024) :
    k1_pay2 (F := Ideal) x0 x1 acc (ix2 p q) = acc (ix2 p q) + ∑ r : Fin 512, x0 (ix2 p r) * x1 (ix2 r q) := by
  unfold k1_pay2
  refine (addf_apply (s := S2048x1024) (φ := .f32) _ _ (ix2 p q)).trans ?_
  rw [shapeCast_self, shapeCast_self]
  refine congrArg (acc (ix2 p q) + ·) ?_
  refine (Ideal.matmul_constant_zero_apply (φ₁ := .bf16) (φ₂ := .bf16) dd none (truncf .bf16 x0 bitsLt_bf16_f32) x1 (ix2 p q)).trans ?_
  rw [← Equiv.sum_comp (contrEquiv1 dd 512 rfl rfl).symm]
  refine Finset.sum_congr rfl fun r _ => ?_
  have hk := contrEquiv1_symm_val dd 512 rfl rfl r
  have el : dd.lhsIdx (ix2 p q) ((contrEquiv1 dd 512 rfl rfl).symm r) = ix2 p r := funext fun a => Fin.ext (by
    match a with
    | ⟨0, _⟩ => exact lhs0 _ _
    | ⟨1, _⟩ => exact (lhs1 _ _).trans hk)
  have er : dd.rhsIdx (ix2 p q) ((contrEquiv1 dd 512 rfl rfl).symm r) = ix2 r q := funext fun a => Fin.ext (by
    match a with
    | ⟨0, _⟩ => exact (rhs0 _ _).trans hk
    | ⟨1, _⟩ => exact rhs1 _ _)
  rw [el, er]
  rfl

/-- The same with the two blocks read off matrices over the naturals: when the left block's entry (p, r) is the left
    matrix's entry (i0 + p, k0 + r) and the right block's entry (r, q) is the right matrix's entry (k0 + r, j0 + q), the
    step adds to the entry found the partial inner product over the contracted positions k0 … k0 + 511. -/
theorem step_of_blocks (x0 : FVec Ideal S2048x512 .f32) (x1 : FVec Ideal S512x1024 .bf16) (acc : FVec Ideal S2048x1024 .f32)
    (p : Fin 2048) (q : Fin 1024) (Xf Bf : ℕ → ℕ → EReal) (i0 k0 j0 : ℕ)
    (hx : ∀ r : Fin 512, x0 (ix2 p r) = Xf (i0 + p.val) (k0 + r.val))
    (hb : ∀ r : Fin 512, x1 (ix2 r q) = Bf (k0 + r.val) (j0 + q.val)) :
    k1_pay2 (F := Ideal) x0 x1 acc (ix2 p q)
      = acc (ix2 p q) + ∑ r ∈ Finset.range 512, Xf (i0 + p.val) (k0 + r) * Bf (k0 + r) (j0 + q.val) := by
  refine (pay2_apply x0 x1 acc p q).trans (congrArg (acc (ix2 p q) + ·) ?_)
  rw [Finset.sum_range]
  exact Finset.sum_congr rfl fun r _ => by rw [hx r, hb r]

/-- The zero block the first step of a group starts from, at any entry. -/
theorem pay1_apply (y : S2048x1024.Idx) : k1_pay1 (F := Ideal) y = 0 := by
  show Ideal.ofBits .f32 0x00000000#32 = 0
  exact Ideal.ofBits_zero_f32

end Cert.KernelIdeal.MatmulStep

end
-- ==== Proof.StepCases.lean ====
/-
  What one grid point of the second launch leaves in the output block, in each of its two control cases.  At the
  first point of a group (contraction block 0) the body writes a zero block, reads it back and adds the block
  product to it; at the other points it adds the block product to what the point before left.  Both are the same
  step function of the two input blocks and of the block found (the zero block in the first case).
-/
import proofs.«181984_j18889266168358_2_alg».proof.Proof.Gen.KernelIdeal.Frame
import Idealize.ShloMosaic.Lib.Pipeline.Value
import Idealize.ShloMosaic.Lib.Tactic

noncomputable section

namespace Cert.KernelIdeal.StepCases

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- A point that is not the first of its group: the step applied to the block the point before left. -/
theorem out_later (c : Dev nD) (i : grid1.Coords) (a3 : Memref sig .tc .vmem S2048x512 .f32) (h3 : a3.IsWhole)
    (a4 : Memref sig .tc .vmem S512x1024 .bf16) (h4 : a4.IsWhole) (a5 : Memref sig .tc .vmem S2048x1024 .f32) (h5 : a5.IsWhole)
    (hc : ¬cond1_0 i) (x0 : Vec F S2048x512 .f32) (x1 : Vec F S512x1024 .bf16) (xo : Vec F S2048x1024 .f32) :
    out1_B_2 c i a3 h3 a4 h4 a5 h5 hc x0 x1 xo = k1_pay2 x0 x1 xo := by
  unfold out1_B_2
  rw [View.read_writes_eq_canon _ _ _ (cover1_B_2 c i a3 h3 a4 h4 a5 h5 hc x0 x1 xo)]
  unfold kernelRun1_B
  dsimp only
  rw [View.canon_unit_zero hz]
  simp only [View.readAt_eq_ld, h3.read_unread, h4.read_unread, h5.read_unread, View.ld_unit_zero (S := S2048x512) hz,
    View.ld_unit_zero (S := S512x1024) hz, View.ld_unit_zero (S := S2048x1024) hz]

/-- The first point of a group: the step applied to the zero block. -/
theorem out_first (c : Dev nD) (i : grid1.Coords) (a3 : Memref sig .tc .vmem S2048x512 .f32) (h3 : a3.IsWhole)
    (a4 : Memref sig .tc .vmem S512x1024 .bf16) (h4 : a4.IsWhole) (a5 : Memref sig .tc .vmem S2048x1024 .f32) (h5 : a5.IsWhole)
    (hc : cond1_0 i) (x0 : Vec F S2048x512 .f32) (x1 : Vec F S512x1024 .bf16) :
    out1_A_2 c i a3 h3 a4 h4 a5 h5 hc x0 x1 = k1_pay2 x0 x1 (k1_pay1 (F := F)) := by
  unfold out1_A_2
  rw [View.read_writes_eq_canon _ _ _ (cover1_A_2 c i a3 h3 a4 h4 a5 h5 hc x0 x1)]
  unfold kernelRun1_A
  dsimp only
  sl_unfold_words
  rw [View.canon_cons_unit_zero (S := S2048x1024) hz, View.readCov_unit_zero (S := S2048x1024) _ hz]
  simp only [View.readAt_eq_ld, h3.read_unread, h4.read_unread, View.ld_unit_zero (S := S2048x512) hz,
    View.ld_unit_zero (S := S512x1024) hz]

end Cert.KernelIdeal.StepCases

end
-- ==== Proof.Accumulated.lean ====
/-
  The second launch: the product of the left matrix with the thresholded right matrix, accumulated in the output
  block.  The grid is 4 × 4 × 8: point 32·a + 8·b + k works on rows 2048·a …, columns 1024·b … and contracted
  positions 512·k … .  Points come in groups of 8 (one group per output block): the first point of a group starts
  from a zero block, every point adds its 512-term partial inner products, and the last point of the group is the one
  whose block is written back.  So after point 8·g + k the block holds the sum of the partial products of contraction
  blocks 0 … k, and what is written back is the full 4096-term inner product.
-/
import proofs.«181984_j18889266168358_2_alg».proof.Proof.Gen.KernelIdeal.Frame
import proofs.«181984_j18889266168358_2_alg».proof.Proof.LibBlockedSum
import proofs.«181984_j18889266168358_2_alg».proof.Proof.MatmulStep
import proofs.«181984_j18889266168358_2_alg».proof.Proof.StepCases
import Idealize.ShloMosaic.Lib.Pipeline.Value

noncomputable section

namespace Cert.KernelIdeal.Accumulated

open Cert.KernelIdeal Cert.KernelIdeal.Gen Cert.BinMatmul
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The left matrix and the thresholded right matrix as the launch finds them, over pairs of naturals. -/
abbrev Xn (c : Dev nD) : ℕ → ℕ → EReal := natExt (a := 8192) (b := 4096) (V c main_arg0)
abbrev Bn (c : Dev nD) : ℕ → ℕ → EReal := natExt (a := 4096) (b := 4096) (V c main_v0)

/-- Where each window's block sits at point `t` = 32·a + 8·b + k: the left block at (a, k), the right block at (k, b),
    the output block at (a, b). -/
theorem idx_facts : ∀ t : Fin cfg1.N,
    win1_0.index t (0 : Fin 2) = t.val / 32 ∧ win1_0.index t (1 : Fin 2) = t.val % 8
    ∧ win1_1.index t (0 : Fin 2) = t.val % 8 ∧ win1_1.index t (1 : Fin 2) = t.val / 8 % 4
    ∧ win1_2.index t (0 : Fin 2) = t.val / 32 ∧ win1_2.index t (1 : Fin 2) = t.val / 8 % 4 :=
  (by decide +kernel : ∀ t : Fin grid1.N, _)

/-- The left block at point `t`, entry (p, r): the left matrix at row 2048·(t/32) + p, column 512·(t%8) + r. -/
theorem xblk_apply (c : Dev nD) (t : Fin cfg1.N) (p : Fin 2048) (r : Fin 512) :
    (iblk1 V c 0 t : FVec Ideal S2048x512 .f32) (ix2 p r)
      = Xn V c (2048 * (t.val / 32) + p.val) (512 * (t.val % 8) + r.val) := by
  obtain ⟨e0, e1, -⟩ := idx_facts t
  unfold iblk1
  rw [View.read_apply]
  refine natExt_of_idx (a := 8192) (b := 4096) (V c main_arg0) _ _ _ ?_ ?_
  · show win1_0.index t (0 : Fin 2) * 2048 + 1 * p.val = _; omega
  · show win1_0.index t (1 : Fin 2) * 512 + 1 * r.val = _; omega

/-- The right block at point `t`, entry (r, q): the thresholded matrix at row 512·(t%8) + r, column 1024·(t/8%4) + q. -/
theorem bblk_apply (c : Dev nD) (t : Fin cfg1.N) (r : Fin 512) (q : Fin 1024) :
    (iblk1 V c 1 t : FVec Ideal S512x1024 .bf16) (ix2 r q)
      = Bn V c (512 * (t.val % 8) + r.val) (1024 * (t.val / 8 % 4) + q.val) := by
  obtain ⟨-, -, e2, e3, -⟩ := idx_facts t
  unfold iblk1
  rw [View.read_apply]
  refine natExt_of_idx (a := 4096) (b := 4096) (V c main_v0) _ _ _ ?_ ?_
  · show win1_1.index t (0 : Fin 2) * 512 + 1 * r.val = _; omega
  · show win1_1.index t (1 : Fin 2) * 1024 + 1 * q.val = _; omega

/-- The partial inner product of contraction block `j` for the output block of group `g`, at entry (p, q). -/
def tm (c : Dev nD) (g j p q : ℕ) : EReal :=
  ∑ r ∈ Finset.range 512, Xn V c (2048 * (g / 4) + p) (512 * j + r) * Bn V c (512 * j + r) (1024 * (g % 4) + q)

/-- The step at point 8·g + j adds that partial inner product to the entry it finds. -/
theorem step_at (c : Dev nD) (g j : ℕ) (hj : j < 8) (hn : 8 * g + j < cfg1.N) (acc : FVec Ideal S2048x1024 .f32)
    (p : Fin 2048) (q : Fin 1024) :
    k1_pay2 (F := Ideal) (iblk1 V c 0 ⟨8 * g + j, hn⟩) (iblk1 V c 1 ⟨8 * g + j, hn⟩) acc (ix2 p q)
      = acc (ix2 p q) + tm V c g j p.val q.val := by
  have e1 : (8 * g + j) / 32 = g / 4 := by omega
  have e2 : (8 * g + j) % 8 = j := by omega
  have e3 : (8 * g + j) / 8 % 4 = g % 4 := by omega
  refine MatmulStep.step_of_blocks (iblk1 V c 0 ⟨8 * g + j, hn⟩) (iblk1 V c 1 ⟨8 * g + j, hn⟩) acc p q (Xn V c) (Bn V c)
    (2048 * (g / 4)) (512 * j) (1024 * (g % 4)) (fun r => ?_) (fun r => ?_)
  · refine (xblk_apply V c ⟨8 * g + j, hn⟩ p r).trans ?_
    show Xn V c (2048 * ((8 * g + j) / 32) + p.val) (512 * ((8 * g + j) % 8) + r.val) = _
    rw [e1, e2]
  · refine (bblk_apply V c ⟨8 * g + j, hn⟩ r q).trans ?_
    show Bn V c (512 * ((8 * g + j) % 8) + r.val) (1024 * ((8 * g + j) / 8 % 4) + q.val) = _
    rw [e2, e3]

/-- The block after a point depends on the point's number only. -/
theorem outsAt_congr (c : Dev nD) (a b : ℕ) (ha : a < cfg1.N) (hb : b < cfg1.N) (e : a = b) :
    outsAt1 V c a ha = outsAt1 V c b hb := by
  subst e; rfl

/-- After point 8·g + k the output block holds, at entry (p, q), the partial inner products of contraction blocks
    0 … k added up — by induction on `k`, the group's first point starting from the zero block. -/
theorem outsAt_apply (c : Dev nD) : ∀ (k : ℕ), k < 8 → ∀ (g : ℕ) (hn : 8 * g + k < cfg1.N) (p : Fin 2048) (q : Fin 1024),
    outsAt1 V c (8 * g + k) hn (ix2 p q) = ∑ j ∈ Finset.range (k + 1), tm V c g j p.val q.val
  | 0, _, g, hn, p, q => by
    have hA : (⟨8 * g + 0, hn⟩ : Fin cfg1.N).val % 8 = 0 := by show (8 * g + 0) % 8 = 0; omega
    have e := outsAt1_A V c ⟨8 * g + 0, hn⟩ hA
    rw [show outsAt1 V c (8 * g + 0) hn = _ from e, StepCases.out_first]
    rw [step_at V c g 0 (by omega) hn, MatmulStep.pay1_apply, zero_add, Finset.sum_range_one]
  | k + 1, hk, g, hn, p, q => by
    have hB : ¬(⟨8 * g + (k + 1), hn⟩ : Fin cfg1.N).val % 8 = 0 := by show ¬(8 * g + (k + 1)) % 8 = 0; omega
    have e := outsAt1_B V c ⟨8 * g + (k + 1), hn⟩ hB
    rw [show outsAt1 V c (8 * g + (k + 1)) hn = _ from e, StepCases.out_later]
    rw [step_at V c g (k + 1) hk hn]
    have hN : cfg1.N = 128 := N_1
    rw [outsAt_congr V c _ (8 * g + k) _ (by omega) (by show 8 * g + (k + 1) - 1 = 8 * g + k; omega),
      outsAt_apply c k (by omega) g _ p q, Finset.sum_range_succ (n := k + 1)]

/-- The product matrix: entry (i, j) is the 4096-term inner product of the left matrix's row i with the thresholded
    matrix's column j. -/
abbrev outArr (c : Dev nD) : S8192x4096.Idx → EReal :=
  fun i => ∑ k ∈ Finset.range 4096, Xn V c (i 0).val k * Bn V c k (i 1).val

/-- What a group's last point writes back is that point's block of the product matrix. -/
theorem flushed_eq (c : Dev nD) (t : Fin cfg1.N) (hf : (cfg1.win 2).flush t = true) :
    (dat1 V c).flushed 2 t = ((cfg1.win 2).blk t).view.read (Elt Ideal) (outArr V c) := by
  have h7 : t.val % 8 = 7 := (flush1_2 t).mp hf
  have hN : cfg1.N = 128 := N_1
  have htN : t.val < 128 := lt_of_lt_of_eq t.isLt hN
  obtain ⟨-, -, -, -, e4, e5⟩ := idx_facts t
  show (cfg1.win 2).cut (grid1.coords t) ((dat1 V c).after 2 t) = _
  rw [after1_2]
  refine funext fun (j : S2048x1024.Idx) => ?_
  obtain ⟨p, q, rfl⟩ : ∃ (p : Fin 2048) (q : Fin 1024), j = ix2 p q := ⟨j 0, j 1, eq_ix2 j⟩
  have hrow : ((((cfg1.win 2).blk t).view.emb (ix2 p q)) 0).val = 2048 * (t.val / 8 / 4) + p.val := by
    show win1_2.index t (0 : Fin 2) * 2048 + 1 * p.val = _; omega
  have hcol : ((((cfg1.win 2).blk t).view.emb (ix2 p q)) 1).val = 1024 * (t.val / 8 % 4) + q.val := by
    show win1_2.index t (1 : Fin 2) * 1024 + 1 * q.val = _; omega
  rw [View.read_apply]
  show outsAt1 V c t.val t.isLt (ix2 p q)
    = ∑ k ∈ Finset.range (8 * 512), Xn V c ((((cfg1.win 2).blk t).view.emb (ix2 p q)) 0).val k
        * Bn V c k ((((cfg1.win 2).blk t).view.emb (ix2 p q)) 1).val
  rw [hrow, hcol, sum_range_blocks 8 512,
    outsAt_congr V c t.val (8 * (t.val / 8) + 7) t.isLt (by omega) (by omega),
    outsAt_apply V c 7 (by omega) (t.val / 8) _ p q]
  rfl

/-- An index of the result is in point `t`'s block iff each coordinate is in the block's range on its axis. -/
theorem mem_blk (t : Fin cfg1.N) (i : S8192x4096.Idx) :
    i ∈ ((cfg1.win 2).blk t).view.set ↔ ∀ a : Fin 2, win1_2.index t a * S2048x1024.size a ≤ (i a).val ∧ (i a).val < win1_2.index t a * S2048x1024.size a + S2048x1024.size a := by
  show i ∈ ((View.whole main_v1).slice (win1_2.rect t)).set ↔ _
  rw [View.set_slice_whole, Rect.mem_set_unit]
  exact Iff.rfl

/-- Entry (i, j) lies in the block written back by the last point of the group of rows i / 2048, columns j / 1024. -/
theorem cover (i : S8192x4096.Idx) : ∃ t : Fin cfg1.N, (cfg1.win 2).flush t = true ∧ i ∈ ((cfg1.win 2).blk t).view.set := by
  have hi0 : (i 0).val < 8192 := (i 0).isLt
  have hi1 : (i 1).val < 4096 := (i 1).isLt
  have hN : cfg1.N = 128 := N_1
  let t : Fin cfg1.N := ⟨32 * ((i 0).val / 2048) + 8 * ((i 1).val / 1024) + 7, by rw [hN]; omega⟩
  obtain ⟨-, -, -, -, e4, e5⟩ := idx_facts t
  have ht : t.val = 32 * ((i 0).val / 2048) + 8 * ((i 1).val / 1024) + 7 := rfl
  refine ⟨t, (flush1_2 t).mpr (by omega), ?_⟩
  rw [mem_blk]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 1024 ≤ (i 1).val ∧ (i 1).val < win1_2.index t (1 : Fin 2) * 1024 + 1024; omega

/-- The array the second launch leaves is the product matrix. -/
theorem final (c : Dev nD) : (dat1 V c).arrAt 2 cfg1.N = outArr V c :=
  (dat1 V c).arrAt_eq_of_cover 2 (outArr V c) (flushed_eq V c) cover

end Cert.KernelIdeal.Accumulated

end
-- ==== Proof.Whole.lean ====
/-
  The idealized kernel's result as one function of its two arguments.  The second launch finds the left matrix as
  launched (the first launch does not touch it) and, in the intermediate buffer, the thresholded right matrix the
  first launch left; its own result is the product of the two.  So the result buffer ends holding, at entry (i, j),
  the 4096-term inner product of the left argument's row i with the thresholded right argument's column j.
-/
import proofs.«181984_j18889266168358_2_alg».proof.Proof.KernelRun
import proofs.«181984_j18889266168358_2_alg».proof.Proof.Thresholded
import proofs.«181984_j18889266168358_2_alg».proof.Proof.Accumulated

noncomputable section

namespace Cert.KernelIdeal.Whole

open Cert.KernelIdeal Cert.KernelIdeal.Gen Cert.BinMatmul
open Idealize.ShloMosaic Idealize.ShloMosaic.TcCoe Idealize.SL.Sem

variable (m : (ℓ : Loc nD τ sig) → Buf (Elt Ideal) ℓ) (ρ : Dev nD → PrngReg)

/-- The second launch finds the left argument as launched. -/
theorem entry_arg0 (c : Dev nD) : V1 m ρ c main_arg0 = m ((c : Thread nD τ).loc main_arg0) :=
  W1_of_ne m ρ c main_arg0 (by decide)

/-- The second launch finds, in the intermediate buffer, the thresholded right argument. -/
theorem entry_v0 (c : Dev nD) : V1 m ρ c main_v0 = Thresholded.binArr (V0 m ρ) c :=
  (W1_arr m ρ c 1).trans (Thresholded.final (V0 m ρ) c)

/-- Entry (i, j) of the product of a left matrix with the entrywise threshold of a right matrix. -/
def resultFn (X : (⟨2, ![8192, 4096]⟩ : Shape).Idx → EReal) (W : (⟨2, ![4096, 4096]⟩ : Shape).Idx → EReal) :
    (⟨2, ![8192, 4096]⟩ : Shape).Idx → EReal := fun i =>
  ∑ k ∈ Finset.range 4096, natExt (a := 8192) (b := 4096) X (i 0).val k
    * natExt (a := 4096) (b := 4096) (fun j => Thresholded.thr (F := Ideal) (W j)) k (i 1).val

/-- The result: entry (i, j) is the inner product of the left argument's row i with the thresholded right argument's
    column j. -/
def result (c : Dev nD) : Buf (Elt Ideal) ((c : Thread nD τ).loc main_v1) :=
  resultFn (m ((c : Thread nD τ).loc main_arg0)) (m ((c : Thread nD τ).loc main_arg1))

/-- The product matrix the second launch leaves, stated over what it finds, is that function of the arguments. -/
theorem outArr_eq (c : Dev nD) : Accumulated.outArr (V1 m ρ) c = result m c := by
  funext i
  show (∑ k ∈ Finset.range 4096, natExt (a := 8192) (b := 4096) (V1 m ρ c main_arg0) (i 0).val k
      * natExt (a := 4096) (b := 4096) (V1 m ρ c main_v0) k (i 1).val : EReal) = _
  rw [entry_arg0, entry_v0]
  rfl

/-- Every weakly fair execution of the idealized kernel terminates without a fault with the result buffer at
    `result` and both arguments as launched. -/
theorem run : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun r h c => ⟨(h c).1.trans ((Accumulated.final (V1 m ρ) c).trans (outArr_eq m ρ c)), (h c).2⟩)
    (OutRun.run (F := Ideal) m ρ)

end Cert.KernelIdeal.Whole

end
-- ==== Proof.lean ====
/-
  A binarised dense layer: the right-hand matrix is thresholded to 0/1 entries (1 where an entry exceeds 0.5) and
  the left matrix is multiplied by it.

  The kernel does it in two launches: the first writes the thresholded matrix, the second accumulates the product in
  the output block over 8 blocks of the contracted axis (a zero block at the first, one 512-term partial product
  added per grid point, the block written back after the eighth).  The reference thresholds, forms w + (b - w) with
  the thresholded entry b (the straight-through estimator), and takes one 4096-term product.

  Over the extended reals both results are, at entry (i, j), the sum over k of left(i, k) · b(k, j):
  the kernel's because addition of extended reals is associative and commutative with 0 neutral, so the eight partial
  sums added in order are the whole sum; the reference's because w + (b - w) = b for a REAL w — which is where the
  precondition (every entry finite) is used.  The roundings to the narrower float format inside the kernel are the
  identity over the extended reals.  The ideal pass rewrote nothing, so the kernel's idealization is its own text.
-/
import proofs.«181984_j18889266168358_2_alg».proof.Defs
import proofs.«181984_j18889266168358_2_alg».proof.Proof.Gen.Kernel
import proofs.«181984_j18889266168358_2_alg».proof.Proof.Gen.Kernel.Frame
import proofs.«181984_j18889266168358_2_alg».proof.Proof.Gen.KernelIdeal
import proofs.«181984_j18889266168358_2_alg».proof.Proof.Gen.KernelIdeal.Frame
import proofs.«181984_j18889266168358_2_alg».proof.Proof.Gen.ReferenceIdeal
import proofs.«181984_j18889266168358_2_alg».proof.Proof.Gen.Pre_finite_inputs
import proofs.«181984_j18889266168358_2_alg».proof.Proof.Gen.ReferenceIdeal.Run
import proofs.«181984_j18889266168358_2_alg».proof.Proof.Gen.ReferenceIdeal.Read
import proofs.«181984_j18889266168358_2_alg».proof.Proof.FiniteArgs
import proofs.«181984_j18889266168358_2_alg».proof.Proof.RefValue
import proofs.«181984_j18889266168358_2_alg».proof.Proof.Whole

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same function of arguments that agree: the inner products of the left matrix's rows
    with the thresholded right matrix's columns.  The precondition makes the right matrix's entries real, so that the
    reference's `w + (b - w)` is `b`. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v6_eq, (hagree c).1, (hagree c).2]
  funext i
  exact Cert.ReferenceIdeal.RefValue.result_apply _ _
    (fun j => Cert.Pre_finite_inputs.Finite.arg1_real _ _ (hpre c) j) i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
